-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S1024x8192 : Shape := ⟨2, ![1024, 8192]⟩
abbrev S1024 : Shape := ⟨1, ![1024]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S16x2048 32) (main_arg1 : FVec F S1024x8192 .f32) (main_arg2 : FVec F S1024 .f32) : IVec S_ 1 :=
  let main_v0 : FVec F S1024x8192 .f32 := Host.absf main_arg1
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S16x2048 : Shape := ⟨2, ![16, 2048]⟩
abbrev S1024x8192 : Shape := ⟨2, ![1024, 8192]⟩
abbrev S1024 : Shape := ⟨1, ![1024]⟩
abbrev S32768x1 : Shape := ⟨2, ![32768, 1]⟩
abbrev S32768x1024 : Shape := ⟨2, ![32768, 1024]⟩
abbrev S512x1 : Shape := ⟨2, ![512, 1]⟩
abbrev S512x1024 : Shape := ⟨2, ![512, 1024]⟩
abbrev S1024x1024 : Shape := ⟨2, ![1024, 1024]⟩
abbrev S1x1024 : Shape := ⟨2, ![1, 1024]⟩
abbrev S16x2048x1024 : Shape := ⟨3, ![16, 2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S1024x8192, .f32⟩
  | .hbm, ⟨2, _⟩ => ⟨S1024, .f32⟩
  | .hbm, ⟨3, _⟩ => ⟨S32768x1, .i32⟩
  | .hbm, ⟨4, _⟩ => ⟨S1024x8192, .bf16⟩
  | .hbm, ⟨5, _⟩ => ⟨S32768x1024, .f32⟩
  | .hbm, ⟨6, _⟩ => ⟨S16x2048x1024, .f32⟩
  | .local _ .vmem, ⟨0, _⟩ => ⟨S512x1, .i32⟩
  | .local _ .vmem, ⟨1, _⟩ => ⟨S512x1, .i32⟩
  | .local _ .vmem, ⟨2, _⟩ => ⟨S1024x8192, .bf16⟩
  | .local _ .vmem, ⟨3, _⟩ => ⟨S1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c1024_i32 : BitVec 32 := 1024#32
  let v16 : BitVec 32 := Scalar.muli v15 c1024_i32
  v16
def k0_off1 (k0_t1 : Fin k0_t1_loop.trips) : Fin 2 → Nat :=
  let c0_11 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c1024_i32 : BitVec 32 := 1024#32
  let v16 : BitVec 32 := Scalar.muli v15 c1024_i32
  let v17 : BitVec 32 := v16
  let v25 : Index := Scalar.indexCast v17
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048_S32768x1 : S16x2048.ShapeCasts S32768x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1024_d1_w32 : S512x1024.Iotas .tc 32 [1]
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S512x1_S512x1024 : S512x1.Broadcasts S512x1024
  natLt_1_32 : 1 < 32
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S32768x1024_S16x2048x1024 : S32768x1024.ShapeCasts S16x2048x1024
  dot_S512x1024_S1024x1024_S512x1024_1_1_0_0_n_n_wf : DotDims.WF S512x1024 S1024x1024 S512x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x1024.size a ≤ S1024x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .i32 = 32 ∨ (Rect.block (s := S32768x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8192.size a ≤ S1024x8192.size a
  hwx0_1 : ∀ i : grid0.Coords, EltTy.bits .bf16 = 32 ∨ (Rect.block (s := S1024x8192) S1024x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048 : Shape := ⟨2, ![16, 2048]⟩
abbrev S1024x8192 : Shape := ⟨2, ![1024, 8192]⟩
abbrev S1024 : Shape := ⟨1, ![1024]⟩
abbrev S16x2048x1 : Shape := ⟨3, ![16, 2048, 1]⟩
abbrev S1x1x8192 : Shape := ⟨3, ![1, 1, 8192]⟩
abbrev S16x2048x8192 : Shape := ⟨3, ![16, 2048, 8192]⟩
abbrev S16x2048x1024 : Shape := ⟨3, ![16, 2048, 1024]⟩
abbrev S1x1x1024 : Shape := ⟨3, ![1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S1024x8192, .f32⟩
  | .hbm, ⟨2, _⟩ => ⟨S1024, .f32⟩
  | .hbm, ⟨3, _⟩ => ⟨S16x2048x1, .i32⟩
  | .hbm, ⟨4, _⟩ => ⟨S1x1x8192, .i32⟩
  | .hbm, ⟨5, _⟩ => ⟨S16x2048x8192, .i32⟩
  | .hbm, ⟨6, _⟩ => ⟨S16x2048x8192, .i32⟩
  | .hbm, ⟨7, _⟩ => ⟨S16x2048x8192, .i1⟩
  | .hbm, ⟨8, _⟩ => ⟨S16x2048x8192, .f32⟩
  | .hbm, ⟨9, _⟩ => ⟨S16x2048x1024, .f32⟩
  | .hbm, ⟨10, _⟩ => ⟨S1x1x1024, .f32⟩
  | .hbm, ⟨11, _⟩ => ⟨S16x2048x1024, .f32⟩
  | .hbm, ⟨12, _⟩ => ⟨S16x2048x1024, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S16x2048_S16x2048x1_0_1 : S16x2048.BroadcastsInDim S16x2048x1 (![0, 1] : Fin 2 → Fin S16x2048x1.rank)
  bcast_S16x2048x1_S16x2048x8192_0_1_2 : S16x2048x1.BroadcastsInDim S16x2048x8192 (![0, 1, 2] : Fin 3 → Fin S16x2048x8192.rank)
  bcast_S1x1x8192_S16x2048x8192_0_1_2 : S1x1x8192.BroadcastsInDim S16x2048x8192 (![0, 1, 2] : Fin 3 → Fin S16x2048x8192.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x8192_S1024x8192_S16x2048x1024_2_1_01_0_n_n_wf : DotDims.WF S16x2048x8192 S1024x8192 S16x2048x1024 [2] [1] [0, 1] [0] [] []

variable [Facts₀]

def dot_S16x2048x8192_S1024x8192_S16x2048x1024_2_1_01_0_n_n : DotDims S16x2048x8192 S1024x8192 S16x2048x1024 where
  lhsContracting := [2]
  rhsContracting := [1]
  lhsNonContracting := [0, 1]
  rhsNonContracting := [0]
  lhsBatch := []
  rhsBatch := []
  wf := dot_S16x2048x8192_S1024x8192_S16x2048x1024_2_1_01_0_n_n_wf

class Facts : Prop extends Facts₀ where

variable [Facts]
-- ==== Proof.Fold.lean ====
/-
  What one grid point leaves in the output block, as a pure function of the three blocks it reads.

  The body fills its accumulator with zeros, then eight times adds to it the product of the ids' indicator
  chunk with the matching 1024 columns of the weights, and last stores the accumulator plus the bias row. The
  run of the body records each store as a piece written over the earlier ones; every store here rewrites the
  whole accumulator, so after each store the accumulator reads as exactly that store's value. Reading the
  recorded pieces back, trip by trip, gives the block as an eight-fold recursion over the chunk number.
-/
import proofs.«140122_j37117107372549_2_alg».proof.Proof.Gen.KernelIdeal.Frame
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The 1024 columns of the weights that chunk `k` multiplies by. -/
abbrev chunk (x1 : Vec F S1024x8192 .bf16) (k : Fin k0_t1_loop.trips) : Vec F S1024x1024 .bf16 :=
  View.ld x1 (Rect.unit (s := S1024x8192) (k0_off1 k) S1024x1024.size (k0_off1_inb k))

/-- The accumulator after the first `n` chunks: zeros, then one chunk's product added per step. -/
def accAt (x0 : Vec F S512x1 .i32) (x1 : Vec F S1024x8192 .bf16) : ℕ → Vec F S512x1024 .f32
  | 0 => k0_pay1
  | n + 1 => if h : n < k0_t1_loop.trips then k0_pay2 x0 ⟨n, h⟩ (chunk x1 ⟨n, h⟩) (accAt x0 x1 n) else accAt x0 x1 n

theorem accAt_succ (x0 : Vec F S512x1 .i32) (x1 : Vec F S1024x8192 .bf16) (k : Fin k0_t1_loop.trips) :
    accAt x0 x1 (k.val + 1) = k0_pay2 x0 k (chunk x1 k) (accAt x0 x1 k.val) := by
  rw [accAt]; exact dif_pos k.isLt

/-- One store of the whole block, read back, is its value: whatever was there before. -/
theorem read_whole_store {sig' : RefSig} {κ : Kind} {sp : Space} (v : View sig' κ sp S512x1024 .f32)
    (f : v.ty.Contents (Elt F)) (w : S512x1024.Idx → Elt F .f32) :
    v.read (Elt F) (v.writes (Elt F) f [(⟨Rect.unit ![0, 0] S512x1024.size inb_S512x1024_S512x1024_0_0, w⟩ : View.Piece (Elt F) S512x1024 .f32)]) = w := by
  rw [View.read_writes_eq_canon _ _ _ (fun y => ⟨_, List.mem_singleton_self _, View.mem_set_unit_zero hz2 inb_S512x1024_S512x1024_0_0 y⟩),
    View.canon_unit_zero hz2]

section
variable (c : Dev nD) (i : grid0.Coords) (arg1 : Memref sig .tc .vmem S512x1 .i32) (harg1 : arg1.IsWhole) (arg2 : Memref sig .tc .vmem S1024x8192 .bf16) (harg2 : arg2.IsWhole) (arg3 : Memref sig .tc .vmem S1024 .f32) (harg3 : arg3.IsWhole) (arg4 : Memref sig .tc .vmem S512x1024 .f32) (harg4 : arg4.IsWhole) (arg5 : Memref sig .tc .vmem S512x1024 .f32) (harg5 : arg5.IsWhole)

/-- Before chunk `n` the accumulator's buffer, zero-filled and then written by the chunks before `n`, reads as the
    recursion's `n`-th value. -/
theorem read_trips (x0 : Vec F S512x1 .i32) (x1 : Vec F S1024x8192 .bf16) (f : arg5.view.ty.Contents (Elt F)) :
    ∀ n : ℕ, n ≤ k0_t1_loop.trips →
      arg5.view.read (Elt F) (arg5.view.writes (Elt F)
        (arg5.view.writes (Elt F) f [(⟨Rect.unit ![0, 0] S512x1024.size inb_S512x1024_S512x1024_0_0, k0_pay1⟩ : View.Piece (Elt F) S512x1024 .f32)])
        (pb_k0_t1 Variants.none c none i arg1 harg1 arg2 harg2 arg3 harg3 arg4 harg4 arg5 harg5 x0 (harg2.unread x1)
          (arg5.view.writes (Elt F) f [(⟨Rect.unit ![0, 0] S512x1024.size inb_S512x1024_S512x1024_0_0, k0_pay1⟩ : View.Piece (Elt F) S512x1024 .f32)]) n))
      = accAt x0 x1 n
  | 0, _ => by
    rw [pb_k0_t1.eq_1, View.writes_nil, read_whole_store]; rfl
  | n + 1, hn => by
    have ih := read_trips x0 x1 f n (Nat.le_of_succ_le hn)
    have hlt : n < k0_t1_loop.trips := hn
    rw [pb_k0_t1_succ Variants.none c none i arg1 harg1 arg2 harg2 arg3 harg3 arg4 harg4 arg5 harg5 x0 (harg2.unread x1) _ ⟨n, hlt⟩,
      View.writes_append]
    unfold tripL_k0_t1
    unfold trip_k0_t1
    dsimp only
    rw [read_whole_store, accAt_succ x0 x1 ⟨n, hlt⟩]
    simp only [View.readAt_eq_ld, harg2.read_unread, ih, View.ld_unit_zero (S := S512x1024) hz2]

/-- THE BLOCK a grid point leaves: the accumulator after all the chunks, plus the bias row. -/
theorem out_eq (x0 : Vec F S512x1 .i32) (x1 : Vec F S1024x8192 .bf16) (x2 : Vec F S1024 .f32) :
    out0_A_3 c i arg1 harg1 arg2 harg2 arg3 harg3 arg4 harg4 arg5 harg5 x0 x1 x2
      = k0_pay3 (accAt x0 x1 k0_t1_loop.trips) x2 := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero hz2]
  unfold kernelRun0_A.sl.v8 kernelRun0_A.sl.HS0_1
  rw [View.writes_append]
  simp only [View.readAt_eq_ld, harg1.read_unread, harg3.read_unread, View.ld_unit_zero (S := S512x1024) hz2,
    View.ld_unit_zero (S := S512x1) hz2, View.ld_unit_zero (S := S1024) hz1]
  rw [read_trips c i arg1 harg1 arg2 harg2 arg3 harg3 arg4 harg4 arg5 harg5 x0 x1 _ _ (Nat.le_refl _)]

end

end Cert.KernelIdeal.Fold

end
-- ==== Proof.Spec.lean ====
/-
  The value both programs compute, as one function of the argument arrays, and the one law of sums that joins
  their two arrangements.

  For token ids `X` (32-bit integers, 16 × 2048 of them), a weight matrix `W` of 1024 rows and 8192 columns
  and a bias `b` of 1024 entries, the result at `(s, t, e)` is the sum over all 8192 columns `v` of
  `[v = X s t] * W e v`, plus `b e`, where `[v = x]` is one when the column number, as a 32-bit word, equals
  the id and zero otherwise. An id that is no column number selects nothing: every indicator is zero.

  One program adds the 8192 terms of a row in one sum; the other adds them in eight consecutive chunks of 1024
  into a running total that starts at zero. Addition of extended reals is commutative and associative, so the
  two arrangements agree whatever the entries are: no entry needs to be finite.
-/
import Idealize.ShloMosaic.PureOps.Ideal
import Idealize.ShloMosaic.Lib.ValueIdx
import Mathlib.Algebra.BigOperators.Intervals

noncomputable section

namespace Cert.Embed

open Idealize.ShloMosaic Idealize.ShloMosaic.ValueIdx

/-- The indicator of "column `v` is the id `x`": the one-bit comparison of the two 32-bit words, read as the
    number 0 or 1. -/
def hot (x : BitVec 32) (v : ℕ) : EReal := (((IntOp.cmpi .eq x (BitVec.ofNat 32 v)).toNat : ℝ) : EReal)

/-- A row of 8192 entries continued by zeros, so that its terms can be summed over initial segments of ℕ. -/
def col (w : Fin 8192 → EReal) (v : ℕ) : EReal := if h : v < 8192 then w ⟨v, h⟩ else 0

theorem col_of_lt (w : Fin 8192 → EReal) {v : ℕ} (h : v < 8192) : col w v = w ⟨v, h⟩ := dif_pos h

/-- The sum of the first `1024 * n` terms `[v = x] * w v` of a row. -/
def part (x : BitVec 32) (w : Fin 8192 → EReal) (n : ℕ) : EReal :=
  ∑ v ∈ Finset.range (1024 * n), hot x v * col w v

theorem part_zero (x : BitVec 32) (w : Fin 8192 → EReal) : part x w 0 = 0 := by
  unfold part; rw [Nat.mul_zero, Finset.range_zero, Finset.sum_empty]

/-- The next partial sum is the previous one plus the next chunk of 1024 terms. -/
theorem part_succ (x : BitVec 32) (w : Fin 8192 → EReal) (n : ℕ) :
    part x w (n + 1) = part x w n + ∑ q : Fin 1024, hot x (1024 * n + q.val) * col w (1024 * n + q.val) := by
  unfold part
  rw [show 1024 * (n + 1) = 1024 * n + 1024 from by ring, Finset.sum_range_add,
    Finset.sum_range (fun q => hot x (1024 * n + q) * col w (1024 * n + q))]

/-- Eight chunks are the whole row. -/
theorem part_eight (x : BitVec 32) (w : Fin 8192 → EReal) :
    part x w 8 = ∑ k : Fin 8192, hot x k.val * w k := by
  unfold part
  rw [show 1024 * 8 = 8192 from by norm_num, Finset.sum_range (fun v => hot x v * col w v)]
  exact Finset.sum_congr rfl fun k _ => by rw [col_of_lt w k.isLt]

/-- THE RESULT as one function of the three argument arrays, index by index. -/
def G (X : (⟨2, ![16, 2048]⟩ : Shape).Idx → BitVec 32) (W : (⟨2, ![1024, 8192]⟩ : Shape).Idx → EReal)
    (b : (⟨1, ![1024]⟩ : Shape).Idx → EReal) : (⟨3, ![16, 2048, 1024]⟩ : Shape).Idx → EReal :=
  fun i => (∑ k : Fin 8192, hot (X (ix2 (i 0) (i 1))) k.val * W (ix2 (i 2) k)) + b (ix1 (i 2))

end Cert.Embed

end
-- ==== Proof.Payloads.lean ====
/-
  The body's three stored values read at one entry, at exact arithmetic.

  The zero fill is zero. One chunk's store is the accumulator's entry plus the sum, over the chunk's 1024
  columns `q`, of the indicator "column `1024 * k + q` is row `p`'s id" times the weights' entry `(e, q)` of the
  chunk: the indicator chunk is built by comparing `1024 * k + q` (a splat of the chunk's first column number
  plus a column counter) with the id broadcast along the row, the comparison bit widened and converted to a
  number, and narrowing that number to a shorter float format changes nothing in exact arithmetic. The last
  store is the accumulator's entry plus the bias entry of its column.
-/
import proofs.«140122_j37117107372549_2_alg».proof.Proof.Gen.KernelIdeal.Skeleton
import proofs.«140122_j37117107372549_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Cert.Embed
open Idealize.ShloMosaic Idealize.ShloMosaic.ValueIdx

/-- The zero fill is zero at every entry. -/
theorem zeros_apply (j : S512x1024.Idx) : k0_pay1 (F := Ideal) j = 0 := by
  unfold k0_pay1
  rw [shapeCast_self]
  show Ideal.ofBits .f32 0x00000000#32 = 0
  exact Ideal.ofBits_zero_f32

/-- The first column number of chunk `k`, as the body computes it from the loop counter. -/
theorem first_col : ∀ k : Fin k0_t1_loop.trips,
    Scalar.muli (Scalar.addi 0#32 (Scalar.muli (Scf.iv 0#32 1#32 k) 1#32)) 1024#32 = BitVec.ofNat 32 (1024 * k.val) := by
  decide +kernel

/-- A comparison bit widened to 32 bits and read as a signed integer is the bit read as a natural number. -/
theorem bit_as_number (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- A comparison of two integer vectors, and their sum, read at an entry; a 32-bit integer converted to a number. -/
theorem cmpi_apply {s : Shape} {w : Nat} (pr : CmpIPredicate) (x y : IVec s w) (i : s.Idx) :
    cmpi pr x y i = IntOp.cmpi pr (x i) (y i) := rfl
theorem addi_apply {s : Shape} {w : Nat} (x y : IVec s w) (i : s.Idx) : addi x y i = IntOp.addi (x i) (y i) := rfl
theorem sitofp_ideal (b : BitVec 32) : FloatOps.sitofp (F := Ideal) .f32 b = ((b.toInt : ℝ) : EReal) := rfl

/-- The indicator chunk at `(p, q)`: column `1024 * k + q` against row `p`'s id. -/
theorem onehot_apply (v0 : Vec Ideal S512x1 .i32) (k : Fin k0_t1_loop.trips) (p : Fin 512) (q : Fin 1024) :
    (truncf (F := Ideal) .bf16 (sitofp .f32 (extui 32 (cmpi .eq
        (addi (broadcast S512x1024 (Scalar.muli (Scalar.addi 0#32 (Scalar.muli (Scf.iv 0#32 1#32 k) 1#32)) 1024#32))
          (iota .tc S512x1024 32 [1] iota_S512x1024_d1_w32))
        (broadcastTo S512x1024 (shapeCast S512x1 v0 shapeCasts_S512x1_S512x1) broadcasts_S512x1_S512x1024)) natLt_1_32))
      bitsLt_bf16_f32) (ix2 p q)
      = hot (v0 (ix2 p 0)) (1024 * k.val + q.val) := by
  rw [truncf_apply, sitofp_apply, extui_apply, sitofp_ideal, bit_as_number, cmpi_apply, addi_apply, broadcast_apply,
    iota_single_apply, shapeCast_self,
    broadcastTo_apply v0 broadcasts_S512x1_S512x1024 (ix2 p q) (ix2 p 0) (fun a => by
      match a with
      | ⟨0, _⟩ => show p.val = if (512 : Nat) = 1 then 0 else p.val; rw [if_neg (by decide)]
      | ⟨1, _⟩ => show 0 = if (1 : Nat) = 1 then 0 else q.val; rw [if_pos rfl]),
    first_col k]
  unfold hot
  show (((IntOp.cmpi .eq (BitVec.ofNat 32 (1024 * k.val) + BitVec.ofNat 32 q.val) (v0 (ix2 p 0))).toNat : ℝ) : EReal) = _
  rw [← BitVec.ofNat_add]
  unfold IntOp.cmpi
  dsimp only
  rw [BEq.comm]

/-- The matrix product's operand indices at output `j` and contraction index `q`: the left operand is read at
    `(j 0, q)`, the right at `(j 1, q)` — both operands are contracted along their second axis. -/
theorem lhs_row (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lhs_col (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
theorem rhs_row (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem rhs_col (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- ONE CHUNK'S STORE at `(p, e)`: the accumulator's entry plus the chunk's indicator-weighted sum of row `e`. -/
theorem chunk_apply (v0 : Vec Ideal S512x1 .i32) (k : Fin k0_t1_loop.trips) (v26 : Vec Ideal S1024x1024 .bf16)
    (v29 : Vec Ideal S512x1024 .f32) (p : Fin 512) (e : Fin 1024) :
    k0_pay2 (F := Ideal) v0 k v26 v29 (ix2 p e)
      = v29 (ix2 p e) + ∑ q : Fin 1024, hot (v0 (ix2 p 0)) (1024 * k.val + q.val) * v26 (ix2 e q) := by
  unfold k0_pay2
  dsimp only
  rw [shapeCast_self, addf_apply]
  refine congrArg (v29 (ix2 p e) + ·) ?_
  simp only [matmul]
  rw [Ideal.matmul_constant_zero_apply,
    ← Equiv.sum_comp (ValueIdx.contrEquiv1 dot_S512x1024_S1024x1024_S512x1024_1_1_0_0_n_n 1024 rfl rfl).symm]
  refine Finset.sum_congr rfl fun q _ => ?_
  have hq := ValueIdx.contrEquiv1_symm_val dot_S512x1024_S1024x1024_S512x1024_1_1_0_0_n_n 1024 rfl rfl q
  have el : dot_S512x1024_S1024x1024_S512x1024_1_1_0_0_n_n.lhsIdx (ix2 p e)
      ((ValueIdx.contrEquiv1 dot_S512x1024_S1024x1024_S512x1024_1_1_0_0_n_n 1024 rfl rfl).symm q) = ix2 p q :=
    funext fun a => Fin.ext (by
      match a with
      | ⟨0, _⟩ => exact lhs_row _ _
      | ⟨1, _⟩ => exact (lhs_col _ _).trans hq)
  have er : dot_S512x1024_S1024x1024_S512x1024_1_1_0_0_n_n.rhsIdx (ix2 p e)
      ((ValueIdx.contrEquiv1 dot_S512x1024_S1024x1024_S512x1024_1_1_0_0_n_n 1024 rfl rfl).symm q) = ix2 e q :=
    funext fun a => Fin.ext (by
      match a with
      | ⟨0, _⟩ => exact rhs_row _ _
      | ⟨1, _⟩ => exact (rhs_col _ _).trans hq)
  rw [el, er, onehot_apply v0 k p q, shapeCast_self]

/-- THE LAST STORE at `(p, e)`: the accumulator's entry plus the bias of column `e`. -/
theorem bias_apply (v8 : Vec Ideal S512x1024 .f32) (v9 : Vec Ideal S1024 .f32) (p : Fin 512) (e : Fin 1024) :
    k0_pay3 (F := Ideal) v8 v9 (ix2 p e) = v8 (ix2 p e) + v9 (ix1 e) := by
  unfold k0_pay3
  rw [addf_apply]
  refine congrArg (v8 (ix2 p e) + ·) ?_
  rw [broadcastTo_1b_ab_apply, shapeCast_a_1a_apply]

end Cert.KernelIdeal.Payloads

end
-- ==== Proof.Block.lean ====
/-
  One grid point's output block at one entry, at exact arithmetic: row `p` of the block and column `e` hold the
  sum over all 8192 columns `v` of "column `v` is row `p`'s id" times the weights' entry `(e, v)`, plus the bias of
  `e`.

  By induction on the chunk number the accumulator after `n` chunks holds the sum of the first `1024 * n` terms:
  it starts at zero, and chunk `n` adds the terms `1024 * n, …, 1024 * n + 1023`, the chunk of the weights it reads
  being columns `1024 * n + q` of the whole matrix. After the eighth chunk that is the whole row.
-/
import proofs.«140122_j37117107372549_2_alg».proof.Proof.Fold
import proofs.«140122_j37117107372549_2_alg».proof.Proof.Payloads

set_option maxRecDepth 16384

noncomputable section

namespace Cert.KernelIdeal.Block

open Cert.KernelIdeal Cert.KernelIdeal.Gen Cert.KernelIdeal.Payloads Cert.Embed
open Idealize.ShloMosaic Idealize.ShloMosaic.ValueIdx

/-- The loop makes eight trips. -/
theorem trips_eq : k0_t1_loop.trips = 8 := by decide +kernel

/-- Chunk `k` of the weights at `(e, q)` is the whole matrix at `(e, 1024 * k + q)`. -/
theorem chunk_at (x1 : Vec Ideal S1024x8192 .bf16) (k : Fin k0_t1_loop.trips) (e : Fin 1024) (q : Fin 1024)
    (h : 1024 * k.val + q.val < 8192) :
    Fold.chunk x1 k (ix2 e q) = x1 (ix2 e ⟨1024 * k.val + q.val, h⟩) := by
  show x1 ((Rect.unit (s := S1024x8192) (k0_off1 k) S1024x1024.size (k0_off1_inb k)).idx (ix2 e q)) = _
  refine congrArg x1 (funext fun a => Fin.ext ?_)
  match a with
  | ⟨0, _⟩ =>
    show k0_off1 k 0 + 1 * e.val = e.val
    rw [k0_off1_eq k]; show 0 + 1 * e.val = e.val; omega
  | ⟨1, _⟩ =>
    show k0_off1 k 1 + 1 * q.val = 1024 * k.val + q.val
    rw [k0_off1_eq k]; show 1024 * k.val + 1 * q.val = 1024 * k.val + q.val; omega

/-- The accumulator after `n` chunks, at `(p, e)`: the first `1024 * n` terms of the row's sum. -/
theorem acc_apply (x0 : Vec Ideal S512x1 .i32) (x1 : Vec Ideal S1024x8192 .bf16) (p : Fin 512) (e : Fin 1024) :
    ∀ n : ℕ, n ≤ k0_t1_loop.trips →
      Fold.accAt x0 x1 n (ix2 p e) = part (x0 (ix2 p 0)) (fun k => x1 (ix2 e k)) n
  | 0, _ => by
    show k0_pay1 (F := Ideal) (ix2 p e) = _
    rw [zeros_apply, part_zero]
  | n + 1, hn => by
    have hlt : n < k0_t1_loop.trips := hn
    have h8 : n < 8 := trips_eq ▸ hlt
    have hs : Fold.accAt x0 x1 (n + 1) = k0_pay2 x0 ⟨n, hlt⟩ (Fold.chunk x1 ⟨n, hlt⟩) (Fold.accAt x0 x1 n) :=
      Fold.accAt_succ x0 x1 ⟨n, hlt⟩
    rw [hs, chunk_apply, acc_apply x0 x1 p e n (Nat.le_of_succ_le hn), part_succ]
    refine congrArg (part (x0 (ix2 p 0)) (fun k => x1 (ix2 e k)) n + ·) (Finset.sum_congr rfl fun q _ => ?_)
    have hq : 1024 * n + q.val < 8192 := by have := q.isLt; omega
    rw [chunk_at x1 ⟨n, hlt⟩ e q hq, col_of_lt _ hq]

/-- THE BLOCK at `(p, e)`: the whole row sum plus the bias. -/
theorem block_apply (c : Dev nD) (i : grid0.Coords) (arg1 : Memref sig .tc .vmem S512x1 .i32) (harg1 : arg1.IsWhole) (arg2 : Memref sig .tc .vmem S1024x8192 .bf16) (harg2 : arg2.IsWhole) (arg3 : Memref sig .tc .vmem S1024 .f32) (harg3 : arg3.IsWhole) (arg4 : Memref sig .tc .vmem S512x1024 .f32) (harg4 : arg4.IsWhole) (arg5 : Memref sig .tc .vmem S512x1024 .f32) (harg5 : arg5.IsWhole)
    (x0 : Vec Ideal S512x1 .i32) (x1 : Vec Ideal S1024x8192 .bf16) (x2 : Vec Ideal S1024 .f32) (p : Fin 512) (e : Fin 1024) :
    out0_A_3 (F := Ideal) c i arg1 harg1 arg2 harg2 arg3 harg3 arg4 harg4 arg5 harg5 x0 x1 x2 (ix2 p e)
      = (∑ k : Fin 8192, hot (x0 (ix2 p 0)) k.val * x1 (ix2 e k)) + x2 (ix1 e) := by
  rw [Fold.out_eq, bias_apply, acc_apply x0 x1 p e _ (Nat.le_refl _), trips_eq, part_eight]

end Cert.KernelIdeal.Block

end
-- ==== Proof.Whole.lean ====
/-
  From one grid point's block to the whole result.

  The region's 64 grid points each write back one block of 512 consecutive rows of a 32768 × 1024 array; point
  `t` reads rows `512 * t … 512 * t + 511` of the ids (laid out as one column), the whole weight matrix and the
  whole bias. Row `r` lies in the block of point `r / 512`, so the blocks cover the array, and the array ends
  holding, at `(r, e)`, the row sum for the id of row `r` plus the bias of `e`.

  Before the region the ids, a 16 × 2048 array, are laid out as 32768 × 1 in row-major order, and the weights
  are narrowed to a shorter float format, which changes nothing in exact arithmetic; after it the
  32768 × 1024 result is laid out as 16 × 2048 × 1024, again in row-major order. Row `2048 * s + t` of the flat
  arrays is position `(s, t)` of the shaped ones, so the program's result is the specification.
-/
import proofs.«140122_j37117107372549_2_alg».proof.Proof.Block
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.Embed
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The region's result as one function of the three arrays it reads: the ids as one column of 32768 rows. -/
def flat (ids : S32768x1.Idx → BitVec 32) (W : S1024x8192.Idx → EReal) (b : S1024.Idx → EReal) : S32768x1024.Idx → EReal :=
  fun j => (∑ k : Fin 8192, hot (ids (ix2 (j 0) 0)) k.val * W (ix2 (j 1) k)) + b (ix1 (j 1))

/-- Where each window's block sits at point `t`: the ids' and the result's blocks at block-row `t`, the weights'
    and the bias's one block at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `flat` of the arrays as the region finds them. -/
theorem flushed_eq (c : Dev nD) (t : Fin cfg0.N) :
    (dats m 0 c).flushed 3 t
      = ((cfg0.win 3).blk t).view.read (Elt Ideal) (flat (V m c main_v0) (V m c main_v1) (V m c main_arg2)) := by
  show (cfg0.win 3).cut (grid0.coords t) ((dats m 0 c).after 3 t) = _
  rw [after0_3]
  unfold outsAt0
  obtain ⟨h00, h01, h10, h11, h20, h30, h31⟩ := idx_facts t
  funext y
  obtain ⟨p, e, rfl⟩ : ∃ (p : Fin 512) (e : Fin 1024), y = ix2 p e := ⟨y 0, y 1, eq_ix2 y⟩
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 p e)
    = flat (V m c main_v0) (V m c main_v1) (V m c main_arg2) (((cfg0.win 3).blk t).view.emb (ix2 p e))
  rw [Block.block_apply]
  unfold flat
  have hids : (iblk m c 0 t : Vec Ideal S512x1 .i32) (ix2 p 0)
      = V m c main_v0 (ix2 ((((cfg0.win 3).blk t).view.emb (ix2 p e)) 0) 0) := by
    show V m c main_v0 (((cfg0.win 0).blk t).view.emb (ix2 p 0)) = _
    refine congrArg (V m c main_v0) (funext fun a => Fin.ext ?_)
    match a with
    | ⟨0, _⟩ => show win0_0.index t (0 : Fin 2) * 512 + 1 * p.val = win0_3.index t (0 : Fin 2) * 512 + 1 * p.val; rw [h00, h30]
    | ⟨1, _⟩ => show win0_0.index t (1 : Fin 2) * 1 + 1 * 0 = 0; rw [h01]
  have hw : ∀ k : Fin 8192, (iblk m c 1 t : Vec Ideal S1024x8192 .bf16) (ix2 e k)
      = V m c main_v1 (ix2 ((((cfg0.win 3).blk t).view.emb (ix2 p e)) 1) k) := fun k => by
    show V m c main_v1 (((cfg0.win 1).blk t).view.emb (ix2 e k)) = _
    refine congrArg (V m c main_v1) (funext fun a => Fin.ext ?_)
    match a with
    | ⟨0, _⟩ => show win0_1.index t (0 : Fin 2) * 1024 + 1 * e.val = win0_3.index t (1 : Fin 2) * 1024 + 1 * e.val; rw [h10, h31]
    | ⟨1, _⟩ => show win0_1.index t (1 : Fin 2) * 8192 + 1 * k.val = k.val; rw [h11]; omega
  have hb : (iblk m c 2 t : Vec Ideal S1024 .f32) (ix1 e)
      = V m c main_arg2 (ix1 ((((cfg0.win 3).blk t).view.emb (ix2 p e)) 1)) := by
    show V m c main_arg2 (((cfg0.win 2).blk t).view.emb (ix1 e)) = _
    refine congrArg (V m c main_arg2) (funext fun a => Fin.ext ?_)
    match a with
    | ⟨0, _⟩ => show win0_2.index t (0 : Fin 1) * 1024 + 1 * e.val = win0_3.index t (1 : Fin 2) * 1024 + 1 * e.val; rw [h20, h31]
  rw [hids, hb]
  exact congrArg (· + _) (Finset.sum_congr rfl fun k _ => by rw [hw k])

/-- An index of the array is in point `t`'s block iff each coordinate is in the block's range on its axis. -/
theorem mem_blk (t : Fin cfg0.N) (i : S32768x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Every row is in the block of the point its number divided by 512 names. -/
theorem cover (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 64 := N_0
  have ht : (i 0).val / 512 < cfg0.N := by rw [hN]; omega
  obtain ⟨-, -, -, -, -, h30, h31⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [h30]; show (i 0).val / 512 * 512 ≤ (i 0).val ∧ (i 0).val < (i 0).val / 512 * 512 + 512; omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    rw [h31]; omega

/-- THE REGION'S ARRAY after the run: the blocks are restrictions of one function and cover the array. -/
theorem final (c : Dev nD) :
    (dats m 0 c).arrAt 3 cfg0.N = flat (V m c main_v0) (V m c main_v1) (V m c main_arg2) :=
  (dats m 0 c).arrAt_eq_of_cover 3 (flat (V m c main_v0) (V m c main_v1) (V m c main_arg2)) (fun t _ => flushed_eq m c t) (fun i => cover i)

/-- The ids as the region finds them: the argument laid out as one column, row-major. -/
theorem ids_eq (c : Dev nD) : (V m c main_v0 : S32768x1.Idx → BitVec 32)
    = shapeCast S32768x1 (m ((c : Thread nD τ).loc main_arg0) : S16x2048.Idx → BitVec 32) shapeCasts_S16x2048_S32768x1 := by
  show StableHlo.after hostOps0 (fun b => m (c, b)) (Proc.devRef .tc main_v0) = _
  after_results
  rfl

/-- The weights as the region finds them: the argument, narrowed — unchanged in exact arithmetic. -/
theorem weights_eq (c : Dev nD) : (V m c main_v1 : S1024x8192.Idx → EReal)
    = (m ((c : Thread nD τ).loc main_arg1) : S1024x8192.Idx → EReal) := by
  show StableHlo.after hostOps0 (fun b => m (c, b)) (Proc.devRef .tc main_v1) = _
  after_results
  rfl

/-- THE RESULT of the program: the region's array laid out as 16 × 2048 × 1024 is the specification of the arguments. -/
theorem result_eq (c : Dev nD) :
    Pipeline.afterTail₀ cfgs (dats m) 0 (V0 m) [hostOps1] c main_v3
      = G (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  funext i
  obtain ⟨s, u, e, rfl⟩ : ∃ (s : Fin 16) (u : Fin 2048) (e : Fin 1024), i = ix3 s u e := ⟨i 0, i 1, i 2, eq_ix3 i⟩
  have hA : Pipeline.withArrays (cfgs 0).spec c (V0 m c) (fun w => (dats m 0 c).arrAt w (cfgs 0).N) (Proc.devRef .tc main_v2)
      = flat (V m c main_v0) (V m c main_v1) (V m c main_arg2) :=
    (Pipeline.withArrays_arr spec0 launch0.win.arr_inj c _ _ 3).trans (final m c)
  show shapeCast S16x2048x1024 (Pipeline.withArrays (cfgs 0).spec c (V0 m c) (fun w => (dats m 0 c).arrAt w (cfgs 0).N) (Proc.devRef .tc main_v2))
      shapeCasts_S32768x1024_S16x2048x1024 (ix3 s u e) = _
  rw [hA]
  have hr : 2048 * s.val + u.val < 32768 := by have := s.isLt; have := u.isLt; omega
  rw [shapeCast_apply _ shapeCasts_S32768x1024_S16x2048x1024 (ix3 s u e) (ix2 ⟨2048 * s.val + u.val, hr⟩ e) (by
    rw [Shape.rowMajor_val_two, Shape.rowMajor_val_three]
    show (2048 * s.val + u.val) * 1024 + e.val = (s.val * 2048 + u.val) * 1024 + e.val
    omega)]
  unfold flat G
  rw [ids_eq, weights_eq, V_main_arg2,
    shapeCast_apply _ shapeCasts_S16x2048_S32768x1 (ix2 (⟨2048 * s.val + u.val, hr⟩ : Fin 32768) (0 : Fin 1)) (ix2 s u) (by
      rw [Shape.rowMajor_val_two, Shape.rowMajor_val_two]
      show s.val * 2048 + u.val = (2048 * s.val + u.val) * 1 + 0
      omega)]

/-- THE RUN, READ: every weakly fair execution terminates with the result array at the specification of the
    arguments, and the arguments unchanged. -/
theorem run : θ_run defs (onTc (τ := τ) (main (F := Ideal))) ⟨m, fun _ => 0, ρ⟩ fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Whole

end
-- ==== Proof.RefValue.lean ====
/-
  The reference's result is the specification, index by index.

  The reference builds the whole indicator array — the ids broadcast along a new last axis compared with the
  column numbers broadcast along the first two, the comparison bit converted to a number —, contracts its last
  axis with the weights' column axis in one sum of 8192 products, and adds the bias broadcast along the first
  two axes. Read at `(s, t, e)` that is the sum over `v` of "column `v` is the id at `(s, t)`" times the weights'
  entry `(e, v)`, plus the bias of `e`.
-/
import proofs.«140122_j37117107372549_2_alg».proof.Proof.Gen.ReferenceIdeal.Read
import proofs.«140122_j37117107372549_2_alg».proof.Proof.Spec

noncomputable section

namespace Cert.ReferenceIdeal.RefValue

open Cert.ReferenceIdeal Cert.ReferenceIdeal.Read Cert.Embed
open Idealize.ShloMosaic Idealize.ShloMosaic.ValueIdx

/-- The last stage of the reference is the specification `G` of the three arguments. -/
theorem ref_eq (X : (⟨S16x2048, .i32⟩ : BufTy).Contents (Elt Ideal)) (W : (⟨S1024x8192, .f32⟩ : BufTy).Contents (Elt Ideal))
    (b : (⟨S1024, .f32⟩ : BufTy).Contents (Elt Ideal)) :
    val_main_v4 (F := Ideal) X W b = G X W b := by
  funext i
  rw [val_main_v4_apply, val_main_v1_apply, val_main_v3_apply, val_main_v2_apply]
  have eb : idx_main_v2 (idx_main_v3 i) = ix1 (i 2) :=
    funext fun a => Fin.ext (by match a with | ⟨0, _⟩ => rfl)
  rw [eb]
  show (∑ k : Fin 8192, val_main_v0 (F := Ideal) X (lidx_main_v1 i k) * W (ridx_main_v1 i k)) + b (ix1 (i 2)) = _
  unfold G
  refine congrArg (· + b (ix1 (i 2))) (Finset.sum_congr rfl fun k _ => ?_)
  rw [val_main_v0_apply, val_main_call0_v4_apply, val_main_call0_v2_apply, val_main_call0_v0_apply,
    val_main_call0_v3_apply, val_main_call0_v1_apply]
  have e1 : idx_main_call0_v0 (idx_main_call0_v2 (lidx_main_v1 i k)) = ix2 (i 0) (i 1) :=
    funext fun a => Fin.ext (by match a with | ⟨0, _⟩ => rfl | ⟨1, _⟩ => rfl)
  have e2 : ridx_main_v1 i k = ix2 (i 2) k :=
    funext fun a => Fin.ext (by match a with | ⟨0, _⟩ => rfl | ⟨1, _⟩ => rfl)
  rw [e1, e2]
  rfl

end Cert.ReferenceIdeal.RefValue

end
-- ==== Proof.lean ====
/-
  An embedding lookup written as a product with indicator rows: for 16 × 2048 token ids `X`, weights `W` of
  1024 rows and 8192 columns and a bias `b`, both programs compute, at `(s, t, e)`,

      the sum over the 8192 columns v of [v = X s t] * W e v,   plus   b e.

  The kernel works on the ids laid out as 32768 rows; each of its 64 grid points takes 512 rows, builds the
  indicator rows 1024 columns at a time, multiplies each chunk with the matching columns of the weights and adds
  the eight products into an accumulator that starts at zero, then adds the bias; the weights are first narrowed
  to a shorter float format, which is the identity in exact arithmetic. The reference builds all 8192 indicator
  columns at once and contracts them with the weights in one sum. A sum of 8192 terms taken at once, or in eight
  consecutive chunks added up from zero, is the same extended real, because addition of extended reals is
  commutative and associative; so the two results agree for all inputs, and the finiteness of the inputs is not
  used.

  The modules: Proof/Spec.lean states the common value and the chunking law; Proof/Fold.lean reads a grid
  point's recorded stores back as an eight-fold recursion; Proof/Payloads.lean reads each stored value at one
  entry; Proof/Block.lean solves the recursion; Proof/Whole.lean goes from the blocks to the whole array and
  through the two changes of layout around the region; Proof/RefValue.lean reads the reference's stages at one
  entry. The three frames are the generated ones (the reference's is its generated run with the result dropped),
  and the idealization rewrote nothing, so what it must preserve is trivially preserved.
-/
import proofs.«140122_j37117107372549_2_alg».proof.Defs
import proofs.«140122_j37117107372549_2_alg».proof.Proof.Gen.Kernel
import proofs.«140122_j37117107372549_2_alg».proof.Proof.Gen.Kernel.Frame
import proofs.«140122_j37117107372549_2_alg».proof.Proof.Gen.KernelIdeal
import proofs.«140122_j37117107372549_2_alg».proof.Proof.Gen.KernelIdeal.Frame
import proofs.«140122_j37117107372549_2_alg».proof.Proof.Gen.ReferenceIdeal
import proofs.«140122_j37117107372549_2_alg».proof.Proof.Gen.Pre_finite_inputs
import proofs.«140122_j37117107372549_2_alg».proof.Proof.Gen.ReferenceIdeal.Run
import proofs.«140122_j37117107372549_2_alg».proof.Proof.Gen.ReferenceIdeal.Read
import proofs.«140122_j37117107372549_2_alg».proof.Proof.Whole
import proofs.«140122_j37117107372549_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read at exact arithmetic. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the three arguments, the kernel's result array ends at the specification of its
    arguments (Proof/Whole.lean) and the reference's at the specification of its own (its generated run, read by
    Proof/RefValue.lean): the same array. -/
theorem algebraic : Cert.algebraic_KernelIdeal_ReferenceIdeal := by
  intro m ρ m' ρ' _ hagree
  refine ⟨fun c => Cert.Embed.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
